-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel

variable [Facts]

def fn {F : FTy → Type} [FloatOps F] (main_arg0 : FVec F S1024x256 .f32) (main_arg1 : FVec F S1024x256 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  main_v8
-- ==== Kernel.lean ====
abbrev S1024x256 : Shape := ⟨2, ![1024, 256]⟩
abbrev S1024x1024 : Shape := ⟨2, ![1024, 1024]⟩
abbrev S256x256 : Shape := ⟨2, ![256, 256]⟩
abbrev S256 : Shape := ⟨1, ![256]⟩
abbrev S256x1 : Shape := ⟨2, ![256, 1]⟩
abbrev S256x128 : Shape := ⟨2, ![256, 128]⟩
abbrev S256x1x128 : Shape := ⟨3, ![256, 1, 128]⟩
abbrev S1x256x128 : Shape := ⟨3, ![1, 256, 128]⟩
abbrev S256x256x128 : Shape := ⟨3, ![256, 256, 128]⟩
abbrev S1x256 : Shape := ⟨2, ![1, 256]⟩

abbrev nBuf : Space → Nat
  | .hbm => 4
  | .vmem => 8
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x1024, .f32⟩
  | .hbm, ⟨3, _⟩ => ⟨S1024x1024, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S256x256_S256x256_0_0 : ∀ a, (![0, 0] : Fin 2 → Nat) a + S256x256.size a ≤ S256x256.size a
  h_S256x256 : 0 < S256x256.numel
  reduces_S256x256_S256 : S256x256.Reduces [1] S256
  shapeCasts_S256_S256x1 : S256.ShapeCasts S256x1
  slices_S256x256_o0_0_S256x128 : S256x256.Slices ![0, 0] S256x128
  shapeCasts_S256x128_S256x1x128 : S256x128.ShapeCasts S256x1x128
  shapeCasts_S256x128_S1x256x128 : S256x128.ShapeCasts S1x256x128
  broadcasts_S256x1x128_S256x256x128 : S256x1x128.Broadcasts S256x256x128
  broadcasts_S1x256x128_S256x256x128 : S1x256x128.Broadcasts S256x256x128
  reduces_S256x256x128_S256x256 : S256x256x128.Reduces [2] S256x256
  slices_S256x256_o0_128_S256x128 : S256x256.Slices ![0, 128] S256x128
  transposes_S256x1_p1_0_S1x256 : S256x1.Transposes [1, 0] S1x256
  broadcasts_S256x1_S256x256 : S256x1.Broadcasts S256x256
  broadcasts_S1x256_S256x256 : S1x256.Broadcasts S256x256
  transposes_S256x256_p1_0_S256x256 : S256x256.Transposes [1, 0] S256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S1024x256.size a
  hwx0_0 : ∀ i : grid0.Coords, EltTy.bits .f32 = 32 ∨ (Rect.block (s := S1024x256) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S1024x256.size a
  hwx0_1 : ∀ i : grid0.Coords, EltTy.bits .f32 = 32 ∨ (Rect.block (s := S1024x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S1024x1024.size a
  hwx0_2 : ∀ i : grid0.Coords, EltTy.bits .f32 = 32 ∨ (Rect.block (s := S1024x1024) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S1024x1024.size a
  hwx0_3 : ∀ i : grid0.Coords, EltTy.bits .f32 = 32 ∨ (Rect.block (s := S1024x1024) S256x256.size (cc0_transform_3 i) (hinb0_3 i)).WholeWords (EltTy.packing .f32)

variable [Facts₀]

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S256x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x256 : Shape := ⟨2, ![1024, 256]⟩
abbrev S_ : Shape := ⟨0, ![]⟩
abbrev S1024x1x256 : Shape := ⟨3, ![1024, 1, 256]⟩
abbrev S1x1024x256 : Shape := ⟨3, ![1, 1024, 256]⟩
abbrev S1024x1024x256 : Shape := ⟨3, ![1024, 1024, 256]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S_, .f32⟩
  | .hbm, ⟨5, _⟩ => ⟨S1024x256, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S1024x256, .f32⟩
  | .hbm, ⟨12, _⟩ => ⟨S_, .f32⟩
  | .hbm, ⟨13, _⟩ => ⟨S1024x256, .f32⟩
  | .hbm, ⟨14, _⟩ => ⟨S1024x256, .f32⟩
  | .hbm, ⟨15, _⟩ => ⟨S_, .f32⟩
  | .hbm, ⟨16, _⟩ => ⟨S1024x256, .f32⟩
  | .hbm, ⟨17, _⟩ => ⟨S1024x256, .f32⟩
  | .hbm, ⟨18, _⟩ => ⟨S1024x1x256, .f32⟩
  | .hbm, ⟨19, _⟩ => ⟨S1x1024x256, .f32⟩
  | .hbm, ⟨20, _⟩ => ⟨S1024x1024x256, .f32⟩
  | .hbm, ⟨21, _⟩ => ⟨S1024x1024x256, .f32⟩
  | .hbm, ⟨22, _⟩ => ⟨S1024x1024x256, .f32⟩
  | .hbm, ⟨23, _⟩ => ⟨S_, .f32⟩
  | .hbm, ⟨24, _⟩ => ⟨S1024x1024, .f32⟩
  | .hbm, ⟨25, _⟩ => ⟨S_, .f32⟩
  | .hbm, ⟨26, _⟩ => ⟨S1024, .f32⟩
  | .hbm, ⟨27, _⟩ => ⟨S1024x1, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S1024x1024, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  bcast_S_S1024x256 : S_.BroadcastsInDim S1024x256 (![] : Fin 0 → Fin S1024x256.rank)
  bcast_S1024x256_S1024x1x256_0_2 : S1024x256.BroadcastsInDim S1024x1x256 (![0, 2] : Fin 2 → Fin S1024x1x256.rank)
  bcast_S1024x256_S1x1024x256_1_2 : S1024x256.BroadcastsInDim S1x1024x256 (![1, 2] : Fin 2 → Fin S1x1024x256.rank)
  bcast_S1024x1x256_S1024x1024x256_0_1_2 : S1024x1x256.BroadcastsInDim S1024x1024x256 (![0, 1, 2] : Fin 3 → Fin S1024x1024x256.rank)
  bcast_S1x1024x256_S1024x1024x256_0_1_2 : S1x1024x256.BroadcastsInDim S1024x1024x256 (![0, 1, 2] : Fin 3 → Fin S1024x1024x256.rank)
  reducesTo_S1024x1024x256_S1024x1024_d2 : S1024x1024x256.ReducesTo [2] S1024x1024
  h_S_ : 0 < S_.numel
  reducesTo_S1024x256_S1024_d1 : S1024x256.ReducesTo [1] S1024
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  transposes_S1024x1024_S1024x1024_1_0 : S1024x1024.Transposes [1, 0] S1024x1024

variable [Facts₀]

class Facts : Prop extends Facts₀ where

variable [Facts]
-- ==== Proof.LibPairwise.lean ====
/-
  Every row of one matrix set against every row of another, and the result summed along the rows' common axis.

  From an `[a, c]` array `A` and a `[b, c]` array `B`, a kernel forms the `[a, b, c]` array whose entry at
  `(p, q, k)` combines `A[p, k]` with `B[q, k]`: each operand gets a unit axis (`[a, c] → [a, 1, c]`,
  `[b, c] → [1, b, c]`), is repeated along it up to `[a, b, c]`, and the two are combined pointwise. Summing over the
  last axis leaves the `[a, b]` matrix of the sums over `k`. The lemmas below read the pieces of that construction at
  an index given by coordinates: the `[1, b, c] → [a, b, c]` repetition, the second operand carried through its cast and
  its repetition, a sum over the last axis of a rank-3 and of a rank-2 array as a sum over that axis's coordinate, and a
  sum over `m + n` consecutive places cut into its first `m` and its last `n`.
-/
import Idealize.ShloMosaic.Lib.Pipeline.Value
import Idealize.ShloMosaic.Lib.ValueIdx
import Idealize.ShloMosaic.Lib.ValueLayout
import Idealize.ShloMosaic.PureOps.Ideal.Laws

namespace Cert.Pairwise

open Idealize.ShloMosaic Idealize.ShloMosaic.ValueIdx

variable {α : Type}

/-- A `[1, b, c]` array repeated to `[a, b, c]` reads, at `(p, q, r)`, the operand at `(0, q, r)`: every slab `p` is
    the operand's one slab. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- A `[b, c]` array given a leading unit axis and repeated along it to `[a, b, c]` reads, at `(p, q, k)`, the
    operand at `(q, k)`: slab `p` is the whole operand, whatever `p`. -/
theorem slabs_apply {a b c : ℕ} (B : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (k : Fin c) :
    broadcastTo ⟨3, ![a, b, c]⟩ (shapeCast ⟨3, ![1, b, c]⟩ B h₁) h₂ (ix3 p q k) = B (ix2 q k) :=
  (broadcastTo_1bc_abc_apply _ h₂ p q k).trans (shapeCast_ab_1ab_apply B h₁ 0 q k)

/-- A sum over the last axis of an `[a, b, c]` array of extended reals, read at the entry whose coordinates are
    `(p, q)`: the sum over `k` of the array at `(p, q, k)`. -/
theorem sumLast3_apply {a b c : ℕ} (X : FVec Ideal ⟨3, ![a, b, c]⟩ .f32) (acc : BitVec 32)
    (h : (⟨3, ![a, b, c]⟩ : Shape).Reduces [2] ⟨2, ![a, b]⟩) (hφ : FKind.Formats .f32)
    (hacc : acc = FKind.add.neutral .f32 hφ) (i : (⟨2, ![a, b]⟩ : Shape).Idx) (p : Fin a) (q : Fin b)
    (hp : (i 0).val = p.val) (hq : (i 1).val = q.val) :
    multiReduction .add [2] ⟨2, ![a, b]⟩ X acc h hφ hacc i = ∑ k : Fin c, X (ix3 p q k) := by
  refine (Ideal.multiReduction_add_single X acc h hφ hacc i).trans ?_
  refine Finset.sum_congr rfl fun k _ => congrArg X ?_
  funext d
  apply Fin.ext
  match d with
  | ⟨0, _⟩ => exact hp
  | ⟨1, _⟩ => exact hq
  | ⟨2, _⟩ => rfl

/-- A sum over the last axis of an `[a, c]` array of extended reals, read at the entry whose coordinate is `p`: the
    sum over `k` of the array at `(p, k)`. -/
theorem sumLast2_apply {a c : ℕ} (X : FVec Ideal ⟨2, ![a, c]⟩ .f32) (acc : BitVec 32)
    (h : (⟨2, ![a, c]⟩ : Shape).Reduces [1] ⟨1, ![a]⟩) (hφ : FKind.Formats .f32)
    (hacc : acc = FKind.add.neutral .f32 hφ) (i : (⟨1, ![a]⟩ : Shape).Idx) (p : Fin a)
    (hp : (i 0).val = p.val) :
    multiReduction .add [1] ⟨1, ![a]⟩ X acc h hφ hacc i = ∑ k : Fin c, X (ix2 p k) := by
  refine (Ideal.multiReduction_add_single X acc h hφ hacc i).trans ?_
  refine Finset.sum_congr rfl fun k _ => congrArg X ?_
  funext d
  apply Fin.ext
  match d with
  | ⟨0, _⟩ => exact hp
  | ⟨1, _⟩ => rfl

/-- A sum over `m + n` consecutive places is the sum over the first `m` plus the sum over the last `n`. It holds in
    any commutative monoid, so on the extended reals it needs no finiteness. -/
theorem sum_fin_add {M : Type*} [AddCommMonoid M] (m n : ℕ) (f : Fin (m + n) → M) :
    ∑ d : Fin (m + n), f d
      = (∑ k : Fin m, f ⟨k.val, Nat.lt_of_lt_of_le k.isLt (Nat.le_add_right m n)⟩)
        + ∑ k : Fin n, f ⟨m + k.val, Nat.add_lt_add_left k.isLt m⟩ :=
  Fin.sum_univ_add f

end Cert.Pairwise
-- ==== Proof.Spec.lean ====
/-
  The similarity of two arrays' rows, as one function of the arrays.

  Each entry `a` of an array is first squashed into `(0, 1)` by `σ a = 1 / (1 + e^(-a))`. For row `i` of `x` and
  row `j` of `y`, both of length `D`,
    overlap(i, j) = ∑ d, min (σ x[i, d]) (σ y[j, d]),     mass_x(i) = ∑ d, σ x[i, d],
  and the similarity is `overlap / (mass_x(i) + mass_y(j) - overlap)`: the sum of the minima over the sum of the
  maxima, the latter written as the two masses less the overlap. Everything is an extended real; nothing below asks
  for a finite value.

  Two facts about it are proved here. The overlap over `256` columns is the overlap over the first `128` plus the
  overlap over the last `128` (a sum cut in two, valid in any commutative monoid). And the similarity of two rows
  depends on those two rows only, so a block of rows cut out of an array has the array's similarities.
-/
import Idealize.ShloMosaic.PureOps.Ideal
import Idealize.ShloMosaic.Lib.ValueIdx
import proofs.«179688_j37555194036374_2_alg».proof.Proof.LibPairwise

noncomputable section

namespace Cert.Jaccard

open Idealize.ShloMosaic Idealize.ShloMosaic.ValueIdx

/-- An `n × d` array of extended reals. -/
abbrev Mat (n d : ℕ) : Type := (⟨2, ![n, d]⟩ : Shape).Idx → EReal

variable {n m D : ℕ}

/-- The overlap of row `i` of `x` and row `j` of `y` on the `w` columns from `o` on. -/
def overlapOn (x : Mat n D) (y : Mat m D) (i : Fin n) (j : Fin m) (o w : ℕ) (h : o + w ≤ D) : EReal :=
  ∑ k : Fin w, min (Ideal.logistic (x (ix2 i ⟨o + k.val, Nat.lt_of_lt_of_le (Nat.add_lt_add_left k.isLt o) h⟩)))
    (Ideal.logistic (y (ix2 j ⟨o + k.val, Nat.lt_of_lt_of_le (Nat.add_lt_add_left k.isLt o) h⟩)))

/-- The overlap of row `i` of `x` and row `j` of `y`: the sum over the columns of the smaller squashed entry. -/
def overlap (x : Mat n D) (y : Mat m D) (i : Fin n) (j : Fin m) : EReal :=
  ∑ d : Fin D, min (Ideal.logistic (x (ix2 i d))) (Ideal.logistic (y (ix2 j d)))

/-- The mass of row `i` of `x`: the sum of its squashed entries. -/
def mass (x : Mat n D) (i : Fin n) : EReal := ∑ d : Fin D, Ideal.logistic (x (ix2 i d))

/-- The overlap over what is left of the two masses once the overlap is counted once. -/
def ratio (o a b : EReal) : EReal := Ideal.div o (a + b - o)

/-- The similarity of row `i` of `x` and row `j` of `y`. -/
def jaccard (x : Mat n D) (y : Mat m D) (i : Fin n) (j : Fin m) : EReal :=
  ratio (overlap x y i j) (mass x i) (mass y j)

/-- The overlap over 256 columns is the overlap on columns 0 … 127 plus the overlap on columns 128 … 255. -/
theorem overlap_halves (x : Mat n 256) (y : Mat m 256) (i : Fin n) (j : Fin m) :
    overlap x y i j = overlapOn x y i j 0 128 (by decide) + overlapOn x y i j 128 128 (by decide) := by
  unfold overlap overlapOn
  refine (Cert.Pairwise.sum_fin_add 128 128
    (fun d : Fin 256 => min (Ideal.logistic (x (ix2 i d))) (Ideal.logistic (y (ix2 j d))))).trans ?_
  refine congrArg₂ (· + ·) (Finset.sum_congr rfl fun k _ => ?_) rfl
  have e : ∀ (h₁ : k.val < 128 + 128) (h₂ : 0 + k.val < 256), (⟨k.val, h₁⟩ : Fin 256) = ⟨0 + k.val, h₂⟩ :=
    fun _ _ => Fin.ext (Nat.zero_add _).symm
  rw [e]

/-- The similarity reads two rows and nothing else: if row `i` of `x` is row `i'` of `x'` and row `j` of `y` is row
    `j'` of `y'`, the two pairs of rows have one similarity. -/
theorem jaccard_congr_rows {n' m' : ℕ} (x : Mat n D) (y : Mat m D) (x' : Mat n' D) (y' : Mat m' D)
    (i : Fin n) (j : Fin m) (i' : Fin n') (j' : Fin m')
    (hx : ∀ d : Fin D, x (ix2 i d) = x' (ix2 i' d)) (hy : ∀ d : Fin D, y (ix2 j d) = y' (ix2 j' d)) :
    jaccard x y i j = jaccard x' y' i' j' := by
  unfold jaccard overlap mass
  simp only [hx, hy]

/-- The matrix of similarities of the rows of two `1024 × 256` arrays: entry `(i, j)` sets row `i` of `x` against
    row `j` of `y`. -/
def simMatrix (x y : Mat 1024 256) : (⟨2, ![1024, 1024]⟩ : Shape).Idx → EReal :=
  fun e => jaccard x y (e 0) (e 1)

/-- Its transpose: entry `(j, i)` sets row `i` of `x` against row `j` of `y`. -/
def simMatrixT (x y : Mat 1024 256) : (⟨2, ![1024, 1024]⟩ : Shape).Idx → EReal :=
  fun e => jaccard x y (e 1) (e 0)

theorem simMatrix_ix2 (x y : Mat 1024 256) (i j : Fin 1024) : simMatrix x y (ix2 i j) = jaccard x y i j := rfl
theorem simMatrixT_ix2 (x y : Mat 1024 256) (j i : Fin 1024) : simMatrixT x y (ix2 j i) = jaccard x y i j := rfl

end Cert.Jaccard

end
-- ==== Proof.RefEntry.lean ====
/-
  The reference program's two results, entry by entry, are the matrix of row similarities and its transpose.

  The reference squashes each argument entry by `1 / (1 + e^(-a))`, spelt with a negation, an exponential, an addition
  and a division: that is `σ a`. It lays the two squashed arrays out as `[1024, 1, 256]` and `[1, 1024, 256]`, repeats
  both to `[1024, 1024, 256]`, takes the minimum and sums over the last axis from `0`: entry `(i, j)` is the overlap of
  row `i` of the first argument and row `j` of the second. The row sums of the squashed arrays, repeated along the
  columns and along the rows, are the two masses. The quotient `overlap / (mass + mass - overlap)` is the first result;
  the second is its transpose.
-/
import proofs.«179688_j37555194036374_2_alg».proof.Proof.Gen.ReferenceIdeal.Read
import proofs.«179688_j37555194036374_2_alg».proof.Proof.Spec
import Idealize.ShloMosaic.PureOps.Ideal.Laws
import Idealize.ShloMosaic.PureOps.IdealRules

noncomputable section

namespace Cert.Jaccard.Ref

open Idealize.ShloMosaic Idealize.ShloMosaic.ValueIdx
open Cert.ReferenceIdeal Cert.ReferenceIdeal.Read Cert.Jaccard

/-- The word `0x3F800000` is the real number one. -/
theorem one_f32 : Ideal.ofBits .f32 0x3F800000#32 = 1 := IdealRules.sign_bit.ideal_onePat .f32

/-- One over one plus the exponential of the negated entry is the squashing `σ`. -/
theorem squash (a : EReal) :
    FloatOps.hostDivf (F := Ideal) (φ := .f32) (Ideal.ofBits .f32 0x3F800000#32)
      (FloatOps.addf (Ideal.ofBits .f32 0x3F800000#32) (FloatOps.hostUnary .exp (FloatOps.hostNegf a)))
      = Ideal.logistic a := by
  rw [one_f32]; rfl

variable (x0 x1 : (⟨S1024x256, .f32⟩ : BufTy).Contents (Elt Ideal))

/-- The first argument squashed, at an entry. -/
theorem squashed0 (i : S1024x256.Idx) : val_main_v5 (F := Ideal) x0 i = Ideal.logistic (x0 i) := by
  rw [val_main_v5_apply, val_main_v4_apply, val_main_cst_0_apply, val_main_v3_apply, val_main_v2_apply,
    val_main_cst_apply, val_main_v1_apply, val_main_v0_apply]
  exact squash (x0 i)

/-- The second argument squashed, at an entry. -/
theorem squashed1 (i : S1024x256.Idx) : val_main_v11 (F := Ideal) x1 i = Ideal.logistic (x1 i) := by
  rw [val_main_v11_apply, val_main_v10_apply, val_main_cst_2_apply, val_main_v9_apply, val_main_v8_apply,
    val_main_cst_1_apply, val_main_v7_apply, val_main_v6_apply]
  exact squash (x1 i)

/-- The row sums of the first squashed array are its masses. -/
theorem mass0 (i : Fin 1024) : val_main_v18 (F := Ideal) x0 (ix1 i) = mass x0 i := by
  rw [val_main_v18_apply, val_main_cst_4_apply]
  show Ideal.ofBits .f32 0x00000000#32 + _ = _
  rw [Ideal.ofBits_zero_f32, zero_add]
  unfold mass
  refine Finset.sum_congr rfl fun k _ => ?_
  rw [squashed0]
  refine congrArg (fun e => Ideal.logistic (x0 e)) ?_
  exact funext fun a => Fin.ext (by match a with | ⟨0, _⟩ => rfl | ⟨1, _⟩ => rfl)

/-- The row sums of the second squashed array are its masses. -/
theorem mass1 (j : Fin 1024) : val_main_v20 (F := Ideal) x1 (ix1 j) = mass x1 j := by
  rw [val_main_v20_apply, val_main_cst_5_apply]
  show Ideal.ofBits .f32 0x00000000#32 + _ = _
  rw [Ideal.ofBits_zero_f32, zero_add]
  unfold mass
  refine Finset.sum_congr rfl fun k _ => ?_
  rw [squashed1]
  refine congrArg (fun e => Ideal.logistic (x1 e)) ?_
  exact funext fun a => Fin.ext (by match a with | ⟨0, _⟩ => rfl | ⟨1, _⟩ => rfl)

/-- The minimum of the two repeated arrays summed over the last axis is, at `(i, j)`, the overlap of row `i` of the
    first argument and row `j` of the second. -/
theorem overlap01 (i j : Fin 1024) : val_main_v17 (F := Ideal) x0 x1 (ix2 i j) = overlap x0 x1 i j := by
  rw [val_main_v17_apply, val_main_cst_3_apply]
  show Ideal.ofBits .f32 0x00000000#32 + _ = _
  rw [Ideal.ofBits_zero_f32, zero_add]
  unfold overlap
  refine Finset.sum_congr rfl fun k _ => ?_
  rw [val_main_v16_apply, val_main_v14_apply, val_main_v12_apply, squashed0, val_main_v15_apply, val_main_v13_apply,
    squashed1]
  refine congrArg₂ (fun e e' => min (Ideal.logistic (x0 e)) (Ideal.logistic (x1 e'))) ?_ ?_
  · exact funext fun a => Fin.ext (by match a with | ⟨0, _⟩ => rfl | ⟨1, _⟩ => rfl)
  · exact funext fun a => Fin.ext (by match a with | ⟨0, _⟩ => rfl | ⟨1, _⟩ => rfl)

/-- The first result at `(i, j)` is the similarity of row `i` of the first argument and row `j` of the second. -/
theorem sim_entry (i j : Fin 1024) : val_main_v26 (F := Ideal) x0 x1 (ix2 i j) = jaccard x0 x1 i j := by
  have e0 : idx_main_v19 (idx_main_v22 (ix2 i j)) = ix1 i :=
    funext fun a => Fin.ext (by match a with | ⟨0, _⟩ => rfl)
  have e1 : idx_main_v21 (idx_main_v23 (ix2 i j)) = ix1 j :=
    funext fun a => Fin.ext (by match a with | ⟨0, _⟩ => rfl)
  rw [val_main_v26_apply, val_main_v25_apply, val_main_v24_apply, val_main_v22_apply, val_main_v19_apply,
    val_main_v23_apply, val_main_v21_apply, e0, e1, mass0, mass1, overlap01]
  rfl

/-- The first result is the matrix of similarities. -/
theorem result0 : val_main_v26 (F := Ideal) x0 x1 = simMatrix x0 x1 := by
  funext e
  obtain ⟨i, j, rfl⟩ : ∃ (i j : Fin 1024), e = ix2 i j := ⟨e 0, e 1, eq_ix2 e⟩
  rw [sim_entry, simMatrix_ix2]

/-- The second result is its transpose. -/
theorem result1 : val_main_v27 (F := Ideal) x0 x1 = simMatrixT x0 x1 := by
  funext e
  obtain ⟨j, i, rfl⟩ : ∃ (j i : Fin 1024), e = ix2 j i := ⟨e 0, e 1, eq_ix2 e⟩
  have e2 : idx_main_v27 (ix2 j i) = ix2 i j :=
    funext fun a => Fin.ext (by match a with | ⟨0, _⟩ => rfl | ⟨1, _⟩ => rfl)
  rw [val_main_v27_apply, e2, sim_entry, simMatrixT_ix2]

end Cert.Jaccard.Ref

end
-- ==== Proof.LibKeepdims.lean ====
/-
  Layout operations that keep a reduced axis as a unit axis, read at an index given by coordinates.

  A row statistic of an `[a, b]` array (a norm, a maximum, a sum over the last axis of an `[a, b, c]` array) is put
  back beside the array it came from in two steps: a shape cast that inserts a unit axis (`[a, b] → [a, b, 1]` for a
  statistic indexed by the row, `[a, b] → [a, 1, b]` for one indexed by the column), and a broadcast that repeats it
  along that unit axis. Read at `(p, q, r)`, the four operations below return the operand at `(p, q)`, `(p, q)`,
  `(p, q, 0)` and `(p, 0, r)`: the row-major positions agree because the inserted axis has extent one, and a broadcast
  reads coordinate `0` on every unit axis of its operand.
-/
import Idealize.ShloMosaic.Lib.Pipeline.Value
import Idealize.ShloMosaic.Lib.ValueIdx

namespace Cert.Keepdims

open Idealize.ShloMosaic Idealize.ShloMosaic.ValueIdx

variable {α : Type}

/-- An `[a, b]` array cast to `[a, b, 1]` reads, at `(p, q, u)`, the operand at `(p, q)`: the position
    `(p·b + q)·1 + u` is `p·b + q` since `u = 0`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, b]` array cast to `[a, 1, b]` reads, at `(p, u, q)`, the operand at `(p, q)`: the position
    `(p·1 + u)·b + q` is `p·b + q` since `u = 0`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-- An `[a, b, 1]` array broadcast to `[a, b, c]` reads, at `(p, q, r)`, the operand at `(p, q, 0)`: every entry of
    row `(p, q)` is that row's one value. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An `[a, 1, c]` array broadcast to `[a, b, c]` reads, at `(p, q, r)`, the operand at `(p, 0, r)`: every row `q` of
    slab `p` is that slab's one row. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

end Cert.Keepdims
-- ==== Proof.KernelEntry.lean ====
/-
  What one grid point's body leaves in its two output blocks, entry by entry.

  The body loads a `256 × 256` block `P0` of rows of the first argument and a `256 × 256` block `P1` of rows of the
  second, squashes both by `σ`, and forms for every pair `(p, q)` of a row of `P0` and a row of `P1` the sum over the
  columns of the smaller squashed entry — in two halves, columns 0 … 127 and columns 128 … 255, each a minimum of two
  arrays repeated to `[256, 256, 128]` summed over the last axis, added one after the other onto zero. With the row
  sums of the two squashed blocks (the masses) it stores `overlap / (mass + mass - overlap)` at `(p, q)` of the first
  output block and at `(q, p)` of the second. So the first block is the similarities of the rows of `P0` against the
  rows of `P1`, and the second block is its transpose.
-/
import proofs.«179688_j37555194036374_2_alg».proof.Proof.Gen.KernelIdeal.Value
import proofs.«179688_j37555194036374_2_alg».proof.Proof.Spec
import proofs.«179688_j37555194036374_2_alg».proof.Proof.LibPairwise
import proofs.«179688_j37555194036374_2_alg».proof.Proof.LibKeepdims
import Idealize.ShloMosaic.Lib.ValueLayout
import Idealize.ShloMosaic.PureOps.Ideal.Laws

noncomputable section

namespace Cert.Jaccard.Kernel

open Idealize.ShloMosaic Idealize.ShloMosaic.ValueIdx
open Cert.KernelIdeal Cert.KernelIdeal.Gen Cert.Jaccard

/-- One half of the overlap: the minimum of the rows of `σ P0` laid along the second axis and the rows of `σ P1` laid
    along the first, on the 128 columns from `o` on, summed over those columns, read at the entry with coordinates
    `(p, q)`. -/
theorem half_apply (P0 P1 : Vec Ideal S256x256 .f32) (o : ℕ) (ho : o + 128 ≤ 256)
    (hs : S256x256.Slices ![0, o] S256x128)
    (h₁ : S256x128.ShapeCasts S256x1x128) (h₂ : S256x1x128.Broadcasts S256x256x128)
    (h₃ : S256x128.ShapeCasts S1x256x128) (h₄ : S1x256x128.Broadcasts S256x256x128)
    (hr : S256x256x128.Reduces [2] S256x256) (hφ : FKind.Formats .f32)
    (hacc : (0x00000000#32 : BitVec 32) = FKind.add.neutral .f32 hφ)
    (i : S256x256.Idx) (p q : Fin 256) (hp : (i 0).val = p.val) (hq : (i 1).val = q.val) :
    multiReduction (F := Ideal) .add [2] S256x256
        (minimumf
          (broadcastTo S256x256x128 (shapeCast S256x1x128 (extractStridedSlice S256x128 ![0, o] (logistic P0) hs) h₁) h₂)
          (broadcastTo S256x256x128 (shapeCast S1x256x128 (extractStridedSlice S256x128 ![0, o] (logistic P1) hs) h₃) h₄))
        0x00000000#32 hr hφ hacc i
      = overlapOn P0 P1 p q o 128 ho := by
  refine (Cert.Pairwise.sumLast3_apply _ _ hr hφ hacc i p q hp hq).trans ?_
  unfold overlapOn
  refine Finset.sum_congr rfl fun k _ => ?_
  refine (minimumf_apply _ _ _).trans (congrArg₂ min ?_ ?_)
  · exact (Cert.Keepdims.broadcastTo_a1c_abc_apply _ h₂ p q k).trans
      ((Cert.Keepdims.shapeCast_ab_a1b_apply _ h₁ p 0 k).trans (slice2_axis1_eq o (logistic (F := Ideal) P0) hs p k))
  · exact (Cert.Pairwise.slabs_apply _ h₃ h₄ p q k).trans (slice2_axis1_eq o (logistic (F := Ideal) P1) hs q k)

/-- The row sums of a squashed block are its masses. -/
theorem rowmass_apply (P : Vec Ideal S256x256 .f32) (hr : S256x256.Reduces [1] S256) (hφ : FKind.Formats .f32)
    (hacc : (0x00000000#32 : BitVec 32) = FKind.add.neutral .f32 hφ) (i : S256.Idx) (p : Fin 256)
    (hp : (i 0).val = p.val) :
    multiReduction (F := Ideal) .add [1] S256 (logistic P) 0x00000000#32 hr hφ hacc i = mass P p :=
  Cert.Pairwise.sumLast2_apply (logistic P) _ hr hφ hacc i p hp

/-- The quotient the body stores, from its parts: a zero, the two halves of the overlap (met twice, once above the
    bar and once below it) and the two masses. -/
theorem ratio_of_parts {z r₀ r₁ s₀ s₁ r₀' r₁' c₀ c₁ m₀ m₁ : EReal}
    (hz : z = 0) (e₀ : r₀ = c₀) (e₁ : r₁ = c₁) (f₀ : s₀ = m₀) (f₁ : s₁ = m₁) (e₀' : r₀' = c₀) (e₁' : r₁' = c₁) :
    Ideal.div ((z + r₀) + r₁) ((s₀ + s₁) - ((z + r₀') + r₁')) = Ideal.div (c₀ + c₁) ((m₀ + m₁) - (c₀ + c₁)) := by
  rw [hz, e₀, e₁, f₀, f₁, e₀', e₁', zero_add]

/-- The first output block at `(p, q)`: the similarity of row `p` of `P0` and row `q` of `P1`. -/
theorem block_entry (P0 P1 : Vec Ideal S256x256 .f32) (p q : Fin 256) :
    Cert.KernelIdeal.Value.E2 (F := Ideal) P0 P1 (ix2 p q) = jaccard P0 P1 p q := by
  unfold jaccard ratio
  rw [overlap_halves]
  exact ratio_of_parts Ideal.ofBits_zero_f32
    (half_apply P0 P1 0 _ _ _ _ _ _ _ _ _ _ p q rfl rfl) (half_apply P0 P1 128 _ _ _ _ _ _ _ _ _ _ p q rfl rfl)
    (rowmass_apply P0 _ _ _ _ p rfl) (rowmass_apply P1 _ _ _ _ q rfl)
    (half_apply P0 P1 0 _ _ _ _ _ _ _ _ _ _ p q rfl rfl) (half_apply P0 P1 128 _ _ _ _ _ _ _ _ _ _ p q rfl rfl)

/-- The second output block at `(q, p)`: the same similarity, of row `p` of `P0` and row `q` of `P1`. -/
theorem blockT_entry (P0 P1 : Vec Ideal S256x256 .f32) (q p : Fin 256) :
    Cert.KernelIdeal.Value.E3 (F := Ideal) P0 P1 (ix2 q p) = jaccard P0 P1 p q := by
  unfold jaccard ratio
  rw [overlap_halves]
  exact ratio_of_parts Ideal.ofBits_zero_f32
    (half_apply P0 P1 0 _ _ _ _ _ _ _ _ _ _ p q rfl rfl) (half_apply P0 P1 128 _ _ _ _ _ _ _ _ _ _ p q rfl rfl)
    (rowmass_apply P0 _ _ _ _ p rfl) (rowmass_apply P1 _ _ _ _ q rfl)
    (half_apply P0 P1 0 _ _ _ _ _ _ _ _ _ _ p q rfl rfl) (half_apply P0 P1 128 _ _ _ _ _ _ _ _ _ _ p q rfl rfl)

end Cert.Jaccard.Kernel

end
-- ==== Proof.KernelArray.lean ====
/-
  From the blocks to the two result arrays.

  The grid has `4 × 4` points. At point `(bi, bj)` the first input block is rows `256·bi … 256·bi + 255` of the first
  argument, the second input block is rows `256·bj … 256·bj + 255` of the second argument, the first output block sits
  at block position `(bi, bj)` of the first result and the second output block at block position `(bj, bi)` of the
  second result. Since a similarity reads two rows only, what the point writes to the first result is exactly the
  `(bi, bj)` block of the matrix of similarities of the two arguments' rows, and what it writes to the second result is
  the `(bj, bi)` block of the transpose. The sixteen blocks tile each `1024 × 1024` result (entry `(i, j)` lies in block
  `(i / 256, j / 256)`), so after the run the first result is the matrix of similarities and the second its transpose.
-/
import proofs.«179688_j37555194036374_2_alg».proof.Proof.Gen.KernelIdeal.Value
import proofs.«179688_j37555194036374_2_alg».proof.Proof.KernelEntry
import Idealize.ShloMosaic.Lib.Pipeline.Value

noncomputable section

namespace Cert.Jaccard.Array

open Cert.KernelIdeal Cert.KernelIdeal.Gen Idealize.ShloMosaic Idealize.ShloMosaic.TcCoe Idealize.SL.Sem
open Idealize.ShloMosaic.ValueIdx Cert.Jaccard
open Idealize.ShloMosaic.Pipeline (Dat)

variable (m : (ℓ : Loc nD τ sig) → Buf (Elt Ideal) ℓ) (ρ : Dev nD → PrngReg)

theorem zero_off : (![0, 0] : Fin 2 → Nat) = fun _ => 0 := funext fun a => by fin_cases a <;> rfl

/-! ## One point, over variables -/

/-- What a point leaves in its first output block, at a block entry `y`, is the matrix of similarities of two arrays
    at the entry `e` that `y` lies under, once the point's input blocks are the right rows of those arrays: rows
    `256·bi + p` of the first, rows `256·bj + q` of the second. -/
theorem out2_entry (X0 X1 : Mat 1024 256) (P0 P1 : Vec Ideal S256x256 .f32) (y : S256x256.Idx)
    (e : (⟨2, ![1024, 1024]⟩ : Shape).Idx) (bi bj : ℕ)
    (h0 : ∀ (p d : Fin 256) (r : Fin 1024), r.val = bi * 256 + p.val → P0 (ix2 p d) = X0 (ix2 r d))
    (h1 : ∀ (q d : Fin 256) (r : Fin 1024), r.val = bj * 256 + q.val → P1 (ix2 q d) = X1 (ix2 r d))
    (he0 : (e 0).val = bi * 256 + (y 0).val) (he1 : (e 1).val = bj * 256 + (y 1).val) :
    out0_2 P0 P1 y = simMatrix X0 X1 e := by
  obtain ⟨p, q, rfl⟩ : ∃ (p q : Fin 256), y = ix2 p q := ⟨y 0, y 1, eq_ix2 y⟩
  obtain ⟨i, j, rfl⟩ : ∃ (i j : Fin 1024), e = ix2 i j := ⟨e 0, e 1, eq_ix2 e⟩
  unfold out0_2
  refine (Cert.KernelIdeal.Value.canon2_eq _ _ _).trans ?_
  simp only [View.ld_unit_zero (S := S256x256) zero_off]
  rw [Cert.Jaccard.Kernel.block_entry, simMatrix_ix2]
  exact jaccard_congr_rows P0 P1 X0 X1 p q i j (fun d => h0 p d i he0) (fun d => h1 q d j he1)

/-- What a point leaves in its second output block, at a block entry `y`, is the transposed matrix at the entry `e`
    that `y` lies under: there the block's first coordinate counts rows of the second array and its second
    coordinate rows of the first. -/
theorem out3_entry (X0 X1 : Mat 1024 256) (P0 P1 : Vec Ideal S256x256 .f32) (y : S256x256.Idx)
    (e : (⟨2, ![1024, 1024]⟩ : Shape).Idx) (bi bj : ℕ)
    (h0 : ∀ (p d : Fin 256) (r : Fin 1024), r.val = bi * 256 + p.val → P0 (ix2 p d) = X0 (ix2 r d))
    (h1 : ∀ (q d : Fin 256) (r : Fin 1024), r.val = bj * 256 + q.val → P1 (ix2 q d) = X1 (ix2 r d))
    (he0 : (e 0).val = bj * 256 + (y 0).val) (he1 : (e 1).val = bi * 256 + (y 1).val) :
    out0_3 P0 P1 y = simMatrixT X0 X1 e := by
  obtain ⟨q, p, rfl⟩ : ∃ (q p : Fin 256), y = ix2 q p := ⟨y 0, y 1, eq_ix2 y⟩
  obtain ⟨j, i, rfl⟩ : ∃ (j i : Fin 1024), e = ix2 j i := ⟨e 0, e 1, eq_ix2 e⟩
  unfold out0_3
  refine (Cert.KernelIdeal.Value.canon3_eq _ _ _).trans ?_
  simp only [View.ld_unit_zero (S := S256x256) zero_off]
  rw [Cert.Jaccard.Kernel.blockT_entry, simMatrixT_ix2]
  exact jaccard_congr_rows P0 P1 X0 X1 p q i j (fun d => h0 p d i he1) (fun d => h1 q d j he0)

/-! ## The index maps over the grid -/

/-- The printed index maps, decided over the sixteen points: the first input moves with the first output's row
    block, the second input with its column block, neither moves along its own columns, the second output sits at
    the transposed block position, and a block position is at most 3 on each axis. -/
theorem index_facts : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_3.index t (0 : Fin 2) = win0_2.index t (1 : Fin 2) ∧ win0_3.index t (1 : Fin 2) = win0_2.index t (0 : Fin 2)
    ∧ win0_2.index t (0 : Fin 2) ≤ 3 ∧ win0_2.index t (1 : Fin 2) ≤ 3 :=
  (by decide +kernel : ∀ t : Fin grid0.N, _)

/-- Every block position of the first result is some point's. -/
theorem index_onto2 : ∀ (a b : Fin 4), ∃ t : Fin cfg0.N, win0_2.index t = ![a.val, b.val] :=
  (by decide +kernel : ∀ (a b : Fin 4), ∃ t : Fin grid0.N, win0_2.index t = ![a.val, b.val])

/-- Every block position of the second result is some point's. -/
theorem index_onto3 : ∀ (a b : Fin 4), ∃ t : Fin cfg0.N, win0_3.index t = ![a.val, b.val] :=
  (by decide +kernel : ∀ (a b : Fin 4), ∃ t : Fin grid0.N, win0_3.index t = ![a.val, b.val])

/-! ## The input blocks as rows of the arguments -/

/-- The first input block at point `t`, row `p`, is row `256·bi + p` of the first argument, `bi` the first output's
    row block there. -/
theorem iblk0_apply (c : Dev nD) (t : Fin cfg0.N) (p d : Fin 256) (r : Fin 1024)
    (hr : r.val = win0_2.index t (0 : Fin 2) * 256 + p.val) :
    (iblk m c 0 t : Vec Ideal S256x256 .f32) (ix2 p d) = (V m c main_arg0 : Mat 1024 256) (ix2 r d) := by
  obtain ⟨e0, e1, -⟩ := index_facts t
  unfold iblk
  rw [View.read_apply]
  show V m c main_arg0 _ = V m c main_arg0 _
  congr 1
  funext a
  apply Fin.ext
  match a with
  | ⟨0, _⟩ => show win0_0.index t (0 : Fin 2) * 256 + 1 * p.val = r.val; omega
  | ⟨1, _⟩ => show win0_0.index t (1 : Fin 2) * 256 + 1 * d.val = d.val; omega

/-- The second input block at point `t`, row `q`, is row `256·bj + q` of the second argument, `bj` the first
    output's column block there. -/
theorem iblk1_apply (c : Dev nD) (t : Fin cfg0.N) (q d : Fin 256) (r : Fin 1024)
    (hr : r.val = win0_2.index t (1 : Fin 2) * 256 + q.val) :
    (iblk m c 1 t : Vec Ideal S256x256 .f32) (ix2 q d) = (V m c main_arg1 : Mat 1024 256) (ix2 r d) := by
  obtain ⟨-, -, e2, e3, -⟩ := index_facts t
  unfold iblk
  rw [View.read_apply]
  show V m c main_arg1 _ = V m c main_arg1 _
  congr 1
  funext a
  apply Fin.ext
  match a with
  | ⟨0, _⟩ => show win0_1.index t (0 : Fin 2) * 256 + 1 * q.val = r.val; omega
  | ⟨1, _⟩ => show win0_1.index t (1 : Fin 2) * 256 + 1 * d.val = d.val; omega

/-! ## What each point writes back -/

/-- Point `t` writes to the first result its block of the matrix of similarities of the two arguments' rows. -/
theorem flushed2_eq (c : Dev nD) (t : Fin cfg0.N) :
    (dats m 0 c).flushed 2 t
      = ((cfg0.win 2).blk t).view.read (Elt Ideal) (simMatrix (V m c main_arg0) (V m c main_arg1)) := by
  rw [Cert.KernelIdeal.Value.flushed2]
  funext y
  show out0_2 (iblk m c 0 t) (iblk m c 1 t) y
    = simMatrix (V m c main_arg0) (V m c main_arg1) (((cfg0.win 2).blk t).view.emb y)
  refine out2_entry (V m c main_arg0) (V m c main_arg1) (iblk m c 0 t) (iblk m c 1 t) y _
    (win0_2.index t (0 : Fin 2)) (win0_2.index t (1 : Fin 2)) ?_ ?_ ?_ ?_
  · intro p d r hr; exact iblk0_apply m c t p d r hr
  · intro q d r hr; exact iblk1_apply m c t q d r hr
  · show win0_2.index t (0 : Fin 2) * 256 + 1 * (y 0).val = _; omega
  · show win0_2.index t (1 : Fin 2) * 256 + 1 * (y 1).val = _; omega

/-- Point `t` writes to the second result its block of the transposed matrix. -/
theorem flushed3_eq (c : Dev nD) (t : Fin cfg0.N) :
    (dats m 0 c).flushed 3 t
      = ((cfg0.win 3).blk t).view.read (Elt Ideal) (simMatrixT (V m c main_arg0) (V m c main_arg1)) := by
  rw [Cert.KernelIdeal.Value.flushed3]
  obtain ⟨-, -, -, -, e4, e5, -⟩ := index_facts t
  funext y
  show out0_3 (iblk m c 0 t) (iblk m c 1 t) y
    = simMatrixT (V m c main_arg0) (V m c main_arg1) (((cfg0.win 3).blk t).view.emb y)
  refine out3_entry (V m c main_arg0) (V m c main_arg1) (iblk m c 0 t) (iblk m c 1 t) y _
    (win0_2.index t (0 : Fin 2)) (win0_2.index t (1 : Fin 2)) ?_ ?_ ?_ ?_
  · intro p d r hr; exact iblk0_apply m c t p d r hr
  · intro q d r hr; exact iblk1_apply m c t q d r hr
  · show win0_3.index t (0 : Fin 2) * 256 + 1 * (y 0).val = _; omega
  · show win0_3.index t (1 : Fin 2) * 256 + 1 * (y 1).val = _; omega

/-! ## The blocks tile the results -/

/-- An entry of the first result is in point `t`'s block iff each coordinate is in the block's range on its axis. -/
theorem mem_blk2 (t : Fin cfg0.N) (i : S1024x1024.Idx) :
    i ∈ ((cfg0.win 2).blk t).view.set ↔ ∀ a : Fin 2, win0_2.index t a * S256x256.size a ≤ (i a).val
      ∧ (i a).val < win0_2.index t a * S256x256.size a + S256x256.size a := by
  show i ∈ ((View.whole main_v0_0).slice (win0_2.rect t)).set ↔ _
  rw [View.set_slice_whole, Rect.mem_set_unit]
  exact Iff.rfl

/-- The same for the second result. -/
theorem mem_blk3 (t : Fin cfg0.N) (i : S1024x1024.Idx) :
    i ∈ ((cfg0.win 3).blk t).view.set ↔ ∀ a : Fin 2, win0_3.index t a * S256x256.size a ≤ (i a).val
      ∧ (i a).val < win0_3.index t a * S256x256.size a + S256x256.size a := by
  show i ∈ ((View.whole main_v0_1).slice (win0_3.rect t)).set ↔ _
  rw [View.set_slice_whole, Rect.mem_set_unit]
  exact Iff.rfl

/-- Entry `(i, j)` of the first result lies in the block at position `(i / 256, j / 256)`. -/
theorem cover2 (i : S1024x1024.Idx) :
    ∃ t : Fin cfg0.N, (cfg0.win 2).flush t = true ∧ i ∈ ((cfg0.win 2).blk t).view.set := by
  have hi0 : (i 0).val < 1024 := (i 0).isLt
  have hi1 : (i 1).val < 1024 := (i 1).isLt
  obtain ⟨t, ht⟩ := index_onto2 ⟨(i 0).val / 256, by omega⟩ ⟨(i 1).val / 256, by omega⟩
  have q0 : win0_2.index t (0 : Fin 2) = (i 0).val / 256 := congrFun ht 0
  have q1 : win0_2.index t (1 : Fin 2) = (i 1).val / 256 := congrFun ht 1
  refine ⟨t, flush0_2 t, ?_⟩
  rw [mem_blk2]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 256 ≤ (i 1).val ∧ (i 1).val < win0_2.index t (1 : Fin 2) * 256 + 256
    omega

/-- Entry `(j, i)` of the second result lies in the block at position `(j / 256, i / 256)`. -/
theorem cover3 (i : S1024x1024.Idx) :
    ∃ t : Fin cfg0.N, (cfg0.win 3).flush t = true ∧ i ∈ ((cfg0.win 3).blk t).view.set := by
  have hi0 : (i 0).val < 1024 := (i 0).isLt
  have hi1 : (i 1).val < 1024 := (i 1).isLt
  obtain ⟨t, ht⟩ := index_onto3 ⟨(i 0).val / 256, by omega⟩ ⟨(i 1).val / 256, by omega⟩
  have q0 : win0_3.index t (0 : Fin 2) = (i 0).val / 256 := congrFun ht 0
  have q1 : win0_3.index t (1 : Fin 2) = (i 1).val / 256 := congrFun ht 1
  refine ⟨t, flush0_3 t, ?_⟩
  rw [mem_blk3]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 256 ≤ (i 1).val ∧ (i 1).val < win0_3.index t (1 : Fin 2) * 256 + 256
    omega

/-! ## The two results after the run -/

/-- The first result ends holding the matrix of similarities of the arguments' rows. -/
theorem final2 (c : Dev nD) :
    (dats m 0 c).arrAt 2 cfg0.N = simMatrix (V m c main_arg0) (V m c main_arg1) :=
  (dats m 0 c).arrAt_eq_of_cover 2 (simMatrix (V m c main_arg0) (V m c main_arg1))
    (fun t _ => flushed2_eq m c t) cover2

/-- The second result ends holding its transpose. -/
theorem final3 (c : Dev nD) :
    (dats m 0 c).arrAt 3 cfg0.N = simMatrixT (V m c main_arg0) (V m c main_arg1) :=
  (dats m 0 c).arrAt_eq_of_cover 3 (simMatrixT (V m c main_arg0) (V m c main_arg1))
    (fun t _ => flushed3_eq m c t) cover3

/-- The kernel's run: it terminates with the first result at the matrix of similarities of the launch contents of the
    two arguments, the second at its transpose, and the arguments as launched. -/
theorem run : θ_run defs (onTc (τ := τ) (main (F := Ideal))) ⟨m, fun _ => 0, ρ⟩ fun r => ∀ c : Dev nD,
      r.2.mem ((c : Thread nD τ).loc main_v0_0)
        = simMatrix (m ((c : Thread nD τ).loc main_arg0)) (m ((c : Thread nD τ).loc main_arg1))
      ∧ r.2.mem ((c : Thread nD τ).loc main_v0_1)
        = simMatrixT (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2.1.trans (final3 m c), (h c).2.2⟩)
    (Cert.KernelIdeal.Value.run_blocks m ρ)

end Cert.Jaccard.Array

end
-- ==== Proof.lean ====
/-
  The kernel and its reference compute one pair of arrays on the extended reals.

  Both programs take two `1024 × 256` arrays `x1`, `x2`, squash every entry by `σ a = 1 / (1 + e^(-a))`, and return
  the `1024 × 1024` matrix whose entry `(i, j)` is
      overlap / (mass₁(i) + mass₂(j) - overlap),     overlap = ∑ d, min (σ x1[i, d]) (σ x2[j, d]),
  with `mass₁(i) = ∑ d, σ x1[i, d]` and `mass₂(j) = ∑ d, σ x2[j, d]`, together with its transpose.

  The reference does it on whole arrays: one minimum of two `[1024, 1024, 256]` arrays summed over the last axis. The
  kernel does it on a `4 × 4` grid of `256 × 256` blocks, and inside a block it sums the minima over columns
  0 … 127 and over columns 128 … 255 separately, adding the two sums onto zero. A sum over 256 places is the sum over
  the first 128 plus the sum over the last 128 in any commutative monoid, so the two overlaps are one extended real
  whatever the entries are, infinite ones included; the masses, the subtraction and the division are then the same
  operations on the same operands. Each entry of a result depends on one row of each argument, so the blocks of the
  kernel's results are the blocks of the reference's, and the sixteen blocks tile each result. The kernel's squashing
  and the reference's (a negation, an exponential, an addition to one and a division of one) are one function. The
  precondition (finite inputs) is never opened.

  The modules: `Spec` (the matrix as a function of the arguments, the sum cut in two, rows only), `RefEntry` (the
  reference's two results are that matrix and its transpose), `KernelEntry` (a block's entries), `KernelArray` (from
  blocks to arrays and the kernel's run), `LibPairwise` and `LibKeepdims` (layout operations read at an index).
-/
import proofs.«179688_j37555194036374_2_alg».proof.Defs
import proofs.«179688_j37555194036374_2_alg».proof.Proof.Gen.Kernel
import proofs.«179688_j37555194036374_2_alg».proof.Proof.Gen.Kernel.Skeleton
import proofs.«179688_j37555194036374_2_alg».proof.Proof.Gen.Kernel.Launch
import proofs.«179688_j37555194036374_2_alg».proof.Proof.Gen.Kernel.Points
import proofs.«179688_j37555194036374_2_alg».proof.Proof.Gen.Kernel.Frame
import proofs.«179688_j37555194036374_2_alg».proof.Proof.Gen.KernelIdeal
import proofs.«179688_j37555194036374_2_alg».proof.Proof.Gen.KernelIdeal.Skeleton
import proofs.«179688_j37555194036374_2_alg».proof.Proof.Gen.KernelIdeal.Launch
import proofs.«179688_j37555194036374_2_alg».proof.Proof.Gen.KernelIdeal.Points
import proofs.«179688_j37555194036374_2_alg».proof.Proof.Gen.KernelIdeal.Frame
import proofs.«179688_j37555194036374_2_alg».proof.Proof.Gen.ReferenceIdeal
import proofs.«179688_j37555194036374_2_alg».proof.Proof.Gen.Pre_finite_inputs
import proofs.«179688_j37555194036374_2_alg».proof.Proof.Gen.KernelIdeal.Value
import proofs.«179688_j37555194036374_2_alg».proof.Proof.Gen.ReferenceIdeal.Run
import proofs.«179688_j37555194036374_2_alg».proof.Proof.Gen.ReferenceIdeal.Read
import proofs.«179688_j37555194036374_2_alg».proof.Proof.RefEntry
import proofs.«179688_j37555194036374_2_alg».proof.Proof.KernelArray
import Idealize.ShloMosaic.Adequacy
import Idealize.ShloMosaic.Init

noncomputable section

namespace Cert.Proof

open Idealize.ShloMosaic Idealize.SL.Sem

/-- The word-level kernel terminates without a fault and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with what it says of the results dropped. -/
theorem frame_reference : Cert.frame_ReferenceIdeal := fun m ρ _ =>
  (θ_run Cert.ReferenceIdeal.defs _ _).mono (fun _ h c => (h c).2.2)
    (Cert.ReferenceIdeal.Value.run (F := Ideal) m ρ)

/-- Nothing of the kernel was rewritten to read it on the extended reals. -/
theorem preserves : Cert.preserves_Kernel_KernelIdeal := trivial

/-- From memories that agree on the two arguments, the kernel ends with its first result at the matrix of
    similarities of the arguments' rows and its second at the transpose, and so does the reference. -/
theorem algebraic : Cert.algebraic_KernelIdeal_ReferenceIdeal := by
  intro m ρ m' ρ' _ hagree
  refine ⟨_, _, Cert.Jaccard.Array.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v26_eq, Cert.Jaccard.Ref.result0, (hagree c).1, (hagree c).2]
  · rw [Cert.ReferenceIdeal.Read.val_main_v27_eq, Cert.Jaccard.Ref.result1, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
